-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S2048 .f32) (main_arg5 : FVec F S4096 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4096x2048 .f32) (main_arg1 : FVec F S2048x2048 .f32) (main_arg2 : FVec F S2048 .f32) (main_arg3 : FVec F S2048x2048 .f32) (main_arg4 : FVec F S2048 .f32) (main_arg5 : FVec F S4096 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S4096 : Shape := ⟨1, ![4096]⟩
abbrev S1x2048 : Shape := ⟨2, ![1, 2048]⟩
abbrev S4096x1 : Shape := ⟨2, ![4096, 1]⟩
abbrev S256x2048 : Shape := ⟨2, ![256, 2048]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4096, .f32⟩
  | .hbm, ⟨6, _⟩ => ⟨S2048x2048, .bf16⟩
  | .hbm, ⟨7, _⟩ => ⟨S2048x2048, .bf16⟩
  | .hbm, ⟨8, _⟩ => ⟨S1x2048, .f32⟩
  | .hbm, ⟨9, _⟩ => ⟨S1x2048, .f32⟩
  | .hbm, ⟨10, _⟩ => ⟨S4096x1, .f32⟩
  | .hbm, ⟨11, _⟩ => ⟨S4096x2048, .f32⟩
  | .local _ .vmem, ⟨0, _⟩ => ⟨S256x2048, .f32⟩
  | .local _ .vmem, ⟨1, _⟩ => ⟨S256x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S256x1, .f32⟩
  | .local _ .vmem, ⟨7, _⟩ => ⟨S256x1, .f32⟩
  | .local _ .vmem, ⟨8, _⟩ => ⟨S256x2048, .f32⟩
  | .local _ .vmem, ⟨9, _⟩ => ⟨S256x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S2048_S1x2048 : S2048.ShapeCasts S1x2048
  shapeCasts_S4096_S4096x1 : S4096.ShapeCasts S4096x1
  inb_S256x2048_S256x2048_0_0 : ∀ a, (![0, 0] : Fin 2 → Nat) a + S256x2048.size a ≤ S256x2048.size a
  h_S256x2048 : 0 < S256x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x2048.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S4096 : Shape := ⟨1, ![4096]⟩
abbrev S1x2048 : Shape := ⟨2, ![1, 2048]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S4096, .f32⟩
  | .hbm, ⟨6, _⟩ => ⟨S2048x2048, .f32⟩
  | .hbm, ⟨7, _⟩ => ⟨S4096x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S2048x2048, .f32⟩
  | .hbm, ⟨12, _⟩ => ⟨S4096x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x1, .f32⟩
  | .hbm, ⟨17, _⟩ => ⟨S4096x2048, .f32⟩
  | .hbm, ⟨18, _⟩ => ⟨S4096x2048, .f32⟩
  | .hbm, ⟨19, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S4096_S4096x1_0 : S4096.BroadcastsInDim S4096x1 (![0] : Fin 1 → Fin S4096x1.rank)
  bcast_S4096x1_S4096x2048_0_1 : S4096x1.BroadcastsInDim S4096x2048 (![0, 1] : Fin 2 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.Spec.lean ====
/-
  What both programs compute, entry by entry, on the extended reals.

  The inputs are a batch `x` of 4096 rows of 2048 numbers, two 2048 × 2048 matrices `w` and `g` (one output
  unit per row, contracted along their second axis), two vectors `b` and `pb` of 2048 numbers and one number
  `lr r` per batch row. Entry `(r, o)` of the result is the affine map of row `r` through `(w, b)` minus
  `lr r` times the affine map of the same row through `(g, pb)`:

      (∑ₖ x[r,k] · w[o,k] + b[o]) − lr[r] · (∑ₖ x[r,k] · g[o,k] + pb[o]).

  The grouping is kept exactly as written: the product with `lr r` is NOT distributed over the inner sum, so no
  law that needs finite operands is used and the formula is meaningful for every extended real.
-/
import Idealize.ShloMosaic.PureOps.Ideal
import Idealize.ShloMosaic.Lib.ValueIdx

noncomputable section

open scoped BigOperators

namespace Cert.Layer

open Idealize.ShloMosaic Idealize.ShloMosaic.ValueIdx

/-- The batch: 4096 rows of 2048 features. Also the shape of the result (4096 rows of 2048 output units). -/
abbrev Batch : Shape := ⟨2, ![4096, 2048]⟩
/-- A weight matrix: 2048 output units, each a row of 2048 features. -/
abbrev Weights : Shape := ⟨2, ![2048, 2048]⟩
/-- One number per output unit. -/
abbrev Units : Shape := ⟨1, ![2048]⟩
/-- One number per batch row. -/
abbrev Rows : Shape := ⟨1, ![4096]⟩

/-- The affine map of batch row `r` at output unit `o`: the row's inner product with the unit's weights, plus the
    unit's bias. -/
def affine (x : FVec Ideal Batch .f32) (w : FVec Ideal Weights .f32) (b : FVec Ideal Units .f32)
    (r : Fin 4096) (o : Fin 2048) : EReal :=
  ∑ k : Fin 2048, x (ix2 r k) * w (ix2 o k) + b (ix1 o)

/-- Entry `(r, o)` of the result: the base affine map minus the row's own rate times the second affine map. -/
def entry (x : FVec Ideal Batch .f32) (w : FVec Ideal Weights .f32) (b : FVec Ideal Units .f32)
    (g : FVec Ideal Weights .f32) (pb : FVec Ideal Units .f32) (lr : FVec Ideal Rows .f32)
    (r : Fin 4096) (o : Fin 2048) : EReal :=
  affine x w b r o - lr (ix1 r) * affine x g pb r o

/-- The whole result array: `entry` at the index's two coordinates. -/
def result (x : FVec Ideal Batch .f32) (w : FVec Ideal Weights .f32) (b : FVec Ideal Units .f32)
    (g : FVec Ideal Weights .f32) (pb : FVec Ideal Units .f32) (lr : FVec Ideal Rows .f32) : FVec Ideal Batch .f32 :=
  fun i => entry x w b g pb lr ⟨(i 0).val, idx2_lt0 i⟩ ⟨(i 1).val, idx2_lt1 i⟩

/-- At an index given by its coordinates the result is `entry` there. -/
theorem result_ix2 (x : FVec Ideal Batch .f32) (w : FVec Ideal Weights .f32) (b : FVec Ideal Units .f32)
    (g : FVec Ideal Weights .f32) (pb : FVec Ideal Units .f32) (lr : FVec Ideal Rows .f32) (r : Fin 4096) (o : Fin 2048) :
    result x w b g pb lr (ix2 r o) = entry x w b g pb lr r o := rfl

end Cert.Layer

end
-- ==== Proof.RefAtIndex.lean ====
/-
  The reference, read at an index, is the specification's entry.

  The reference transposes each weight matrix, contracts the batch's second axis against the transposed matrix's
  first, and adds the bias broadcast over the rows; it then multiplies the second affine map by the per-row rate
  broadcast over the columns and subtracts. Read at entry `(r, o)`:
  * the transposed matrix at `(k, o)` is the matrix at `(o, k)`, so each contraction is `∑ₖ x[r,k] · w[o,k]`;
  * a vector broadcast first to one row and then over all rows reads its entry `o`;
  * the rates broadcast first to one column and then over all columns read their entry `r`.
  Sum, product and difference are the extended reals' own, in the same grouping as the specification.
-/
import proofs.«171589_j88252987998616_2_alg».proof.Proof.Gen.ReferenceIdeal.Read
import proofs.«171589_j88252987998616_2_alg».proof.Proof.Spec

noncomputable section

open scoped BigOperators

namespace Cert.ReferenceIdeal.AtIndex

open Cert.ReferenceIdeal Cert.ReferenceIdeal.Read Idealize.ShloMosaic Idealize.ShloMosaic.ValueIdx Cert.Layer

variable (x : (⟨S4096x2048, .f32⟩ : BufTy).Contents (Elt Ideal)) (w : (⟨S2048x2048, .f32⟩ : BufTy).Contents (Elt Ideal)) (b : (⟨S2048, .f32⟩ : BufTy).Contents (Elt Ideal))
  (g : (⟨S2048x2048, .f32⟩ : BufTy).Contents (Elt Ideal)) (pb : (⟨S2048, .f32⟩ : BufTy).Contents (Elt Ideal)) (lr : (⟨S4096, .f32⟩ : BufTy).Contents (Elt Ideal))

/-- The batch operand of the first contraction at `(r, o)`, term `k`, is the batch at `(r, k)`. -/
theorem lhs_w (r : Fin 4096) (o k : Fin 2048) : lidx_main_v1 (ix2 r o) k = ix2 r k :=
  funext fun a => Fin.ext (by match a with | ⟨0, _⟩ => rfl | ⟨1, _⟩ => rfl)
/-- Its matrix operand, through the transpose, is the matrix at `(o, k)`. -/
theorem rhs_w (r : Fin 4096) (o k : Fin 2048) : idx_main_v0 (ridx_main_v1 (ix2 r o) k) = ix2 o k :=
  funext fun a => Fin.ext (by match a with | ⟨0, _⟩ => rfl | ⟨1, _⟩ => rfl)
/-- The same two facts for the second contraction. -/
theorem lhs_g (r : Fin 4096) (o k : Fin 2048) : lidx_main_v6 (ix2 r o) k = ix2 r k :=
  funext fun a => Fin.ext (by match a with | ⟨0, _⟩ => rfl | ⟨1, _⟩ => rfl)
theorem rhs_g (r : Fin 4096) (o k : Fin 2048) : idx_main_v5 (ridx_main_v6 (ix2 r o) k) = ix2 o k :=
  funext fun a => Fin.ext (by match a with | ⟨0, _⟩ => rfl | ⟨1, _⟩ => rfl)
/-- A bias broadcast to a row and then over the rows reads, at `(r, o)`, its entry `o`. -/
theorem unit_b (r : Fin 4096) (o : Fin 2048) : idx_main_v2 (idx_main_v3 (ix2 r o)) = ix1 o :=
  funext fun a => Fin.ext (by match a with | ⟨0, _⟩ => rfl)
theorem unit_pb (r : Fin 4096) (o : Fin 2048) : idx_main_v7 (idx_main_v8 (ix2 r o)) = ix1 o :=
  funext fun a => Fin.ext (by match a with | ⟨0, _⟩ => rfl)
/-- The rates broadcast to a column and then over the columns read, at `(r, o)`, their entry `r`. -/
theorem row_lr (r : Fin 4096) (o : Fin 2048) : idx_main_v10 (idx_main_v11 (ix2 r o)) = ix1 r :=
  funext fun a => Fin.ext (by match a with | ⟨0, _⟩ => rfl)

/-- The reference's last stage at `(r, o)` is the specification's entry. -/
theorem stage_entry (r : Fin 4096) (o : Fin 2048) :
    val_main_v13 (F := Ideal) x w b g pb lr (ix2 r o) = entry x w b g pb lr r o := by
  rw [val_main_v13_apply, val_main_v4_apply, val_main_v1_apply, val_main_v3_apply, val_main_v2_apply,
    val_main_v12_apply, val_main_v11_apply, val_main_v10_apply, val_main_v9_apply, val_main_v6_apply,
    val_main_v8_apply, val_main_v7_apply]
  simp only [val_main_v0_apply, val_main_v5_apply, lhs_w, rhs_w, lhs_g, rhs_g, unit_b, unit_pb, row_lr,
    Ideal.addf_def, Ideal.subf_def, Ideal.mulf_def]
  rfl

/-- The reference's result term is the specification's array. -/
theorem stage_result : val_main_v13 (F := Ideal) x w b g pb lr = result x w b g pb lr := by
  funext i
  obtain ⟨r, o, rfl⟩ : ∃ (r : Fin 4096) (o : Fin 2048), i = ix2 r o := ⟨i 0, i 1, eq_ix2 i⟩
  exact stage_entry x w b g pb lr r o

end Cert.ReferenceIdeal.AtIndex

end
-- ==== Proof.AtEntry.lean ====
/-
  What the kernel's operand arrays hold when the grid starts.

  Before the grid runs, the program prepares five arrays from its arguments: the two weight matrices narrowed
  (a change of format only), the two bias vectors re-laid as `1 × 2048` rows, and the per-row rates re-laid as a
  `4096 × 1` column. Nothing else is written, so each prepared array is exactly that one operation of its argument.
-/
import proofs.«171589_j88252987998616_2_alg».proof.Proof.Gen.KernelIdeal.Frame
import Idealize.ShloMosaic.Lib.StableHlo.Run

noncomputable section

namespace Cert.KernelIdeal.AtEntry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The first matrix operand is the first weight argument, narrowed. -/
theorem narrowed_w (c : Dev nD) :
    (V m c main_v0 : S2048x2048.Idx → F .bf16) = truncf .bf16 (m ((c : Thread nD τ).loc main_arg1)) bitsLt_bf16_f32 := by
  dsimp only [Gen.V, Gen.hostOps0]; after_results

/-- The second matrix operand is the second weight argument, narrowed. -/
theorem narrowed_g (c : Dev nD) :
    (V m c main_v1 : S2048x2048.Idx → F .bf16) = truncf .bf16 (m ((c : Thread nD τ).loc main_arg3)) bitsLt_bf16_f32 := by
  dsimp only [Gen.V, Gen.hostOps0]; after_results

/-- The first bias operand is the first bias argument as one row. -/
theorem row_b (c : Dev nD) :
    (V m c main_v2 : S1x2048.Idx → F .f32) = shapeCast S1x2048 (m ((c : Thread nD τ).loc main_arg2)) shapeCasts_S2048_S1x2048 := by
  dsimp only [Gen.V, Gen.hostOps0]; after_results; rfl

/-- The second bias operand is the second bias argument as one row. -/
theorem row_pb (c : Dev nD) :
    (V m c main_v3 : S1x2048.Idx → F .f32) = shapeCast S1x2048 (m ((c : Thread nD τ).loc main_arg4)) shapeCasts_S2048_S1x2048 := by
  dsimp only [Gen.V, Gen.hostOps0]; after_results; rfl

/-- The rate operand is the rate argument as one column. -/
theorem column_lr (c : Dev nD) :
    (V m c main_v4 : S4096x1.Idx → F .f32) = shapeCast S4096x1 (m ((c : Thread nD τ).loc main_arg5)) shapeCasts_S4096_S4096x1 := by
  dsimp only [Gen.V, Gen.hostOps0]; after_results; rfl

end Cert.KernelIdeal.AtEntry

end
-- ==== Proof.Layout.lean ====
/-
  Two layout operations read at an index, for the per-row rates.

  The rates arrive as a vector with one entry per batch row, are re-laid as a column (`[a] → [a, 1]`) and the column
  is broadcast across all output units (`[a, 1] → [a, b]`). Entry `(p, c)` of the broadcast is the column's entry
  `(p, 0)`, and entry `(i, u)` of the column is the vector's entry `i`: row-major positions agree because the
  added axis has extent one.
-/
import Idealize.ShloMosaic.Lib.Pipeline.Value
import Idealize.ShloMosaic.Lib.ValueIdx

noncomputable section

namespace Cert.Layer.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Layer.Layout

end
-- ==== Proof.Payload.lean ====
/-
  The kernel body's stored value, read at an index of its block.

  One grid point holds 256 batch rows. From its loads — the rows `xs`, the two weight matrices `ws` and `gs`,
  the two bias rows `bs` and `pbs` (each a `1 × 2048` row) and the rates `lrs` of its rows (a `256 × 1` column) —
  the body stores, at `(p, o)`,

      (∑ₖ xs[p,k] · ws[o,k] + bs[0,o]) − lrs[p,0] · (∑ₖ xs[p,k] · gs[o,k] + pbs[0,o]).

  * The narrowing of the rows before the products is the identity on extended reals.
  * Each matrix product contracts the second axis of both operands into a zero accumulator, so at `(p, o)` it is
    the plain sum over `k` of `xs[p,k] · ws[o,k]`: the contraction index has one coordinate, the left operand's index
    is `(p, k)` and the right operand's is `(o, k)`.
  * A bias row broadcast over the 256 rows reads its entry `(0, o)`; the rate column broadcast over the 2048 units
    reads its entry `(p, 0)`.
-/
import proofs.«171589_j88252987998616_2_alg».proof.Proof.Gen.KernelIdeal.Skeleton
import proofs.«171589_j88252987998616_2_alg».proof.Proof.Layout
import Idealize.ShloMosaic.Lib.ValueLayout
import Idealize.ShloMosaic.PureOps.Ideal.Laws

noncomputable section

open scoped BigOperators

namespace Cert.KernelIdeal.AtIndex

open Cert.KernelIdeal Cert.KernelIdeal.Gen Idealize.ShloMosaic Idealize.ShloMosaic.ValueIdx Cert.Layer.Layout

/-! ## One matrix product at an index -/

/-- The left operand's row coordinate is the output's row. -/
theorem lhs_row (j : S256x2048.Idx) (q : dot_S256x2048_S2048x2048_S256x2048_1_1_0_0_n_n.contr.Idx) :
    (dot_S256x2048_S2048x2048_S256x2048_1_1_0_0_n_n.lhsIdx j q 0).val = (j 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
/-- The left operand's column coordinate is the contraction index. -/
theorem lhs_contr (j : S256x2048.Idx) (q : dot_S256x2048_S2048x2048_S256x2048_1_1_0_0_n_n.contr.Idx) :
    (dot_S256x2048_S2048x2048_S256x2048_1_1_0_0_n_n.lhsIdx j q 1).val = (q ⟨0, by decide⟩).val :=
  dot_S256x2048_S2048x2048_S256x2048_1_1_0_0_n_n.lhsIdx_val_of_single rfl j q
/-- The right operand's row coordinate is the output's column: one matrix row per output unit. -/
theorem rhs_unit (j : S256x2048.Idx) (q : dot_S256x2048_S2048x2048_S256x2048_1_1_0_0_n_n.contr.Idx) :
    (dot_S256x2048_S2048x2048_S256x2048_1_1_0_0_n_n.rhsIdx j q 0).val = (j 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- The right operand's column coordinate is the contraction index. -/
theorem rhs_contr (j : S256x2048.Idx) (q : dot_S256x2048_S2048x2048_S256x2048_1_1_0_0_n_n.contr.Idx) :
    (dot_S256x2048_S2048x2048_S256x2048_1_1_0_0_n_n.rhsIdx j q 1).val = (q ⟨0, by decide⟩).val :=
  dot_S256x2048_S2048x2048_S256x2048_1_1_0_0_n_n.rhsIdx_val_of_single rfl j q

/-- A product of 256 rows with a matrix, both contracted along their second axis, into the zero accumulator: at
    `(p, o)` the sum over `k` of row `p` at `k` times matrix row `o` at `k`. -/
theorem product_entry (a : FVec Ideal S256x2048 .bf16) (mat : FVec Ideal S2048x2048 .bf16) (p : Fin 256) (o : Fin 2048) :
    matmul dot_S256x2048_S2048x2048_S256x2048_1_1_0_0_n_n none a mat (constant S256x2048 .f32 0x00000000#32) (ix2 p o)
      = ∑ k : Fin 2048, a (ix2 p k) * mat (ix2 o k) := by
  simp only [matmul]
  rw [Ideal.matmul_constant_zero_apply, ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p o) ((contrEquiv1 dot_S256x2048_S2048x2048_S256x2048_1_1_0_0_n_n 2048 rfl rfl).symm k) = ix2 p k := funext fun ax => Fin.ext (by
    match ax with
    | ⟨0, _⟩ => exact lhs_row _ _
    | ⟨1, _⟩ => exact (lhs_contr _ _).trans hk)
  have er : dot_S256x2048_S2048x2048_S256x2048_1_1_0_0_n_n.rhsIdx (ix2 p o) ((contrEquiv1 dot_S256x2048_S2048x2048_S256x2048_1_1_0_0_n_n 2048 rfl rfl).symm k) = ix2 o k := funext fun ax => Fin.ext (by
    match ax with
    | ⟨0, _⟩ => exact rhs_unit _ _
    | ⟨1, _⟩ => exact (rhs_contr _ _).trans hk)
  rw [el, er]

/-! ## The stored value at an index -/

/-- The body's stored value at `(p, o)`, from its loads. -/
theorem stored_entry (xs : Vec Ideal S256x2048 .f32) (ws : Vec Ideal S2048x2048 .bf16) (bs : Vec Ideal S1x2048 .f32)
    (gs : Vec Ideal S2048x2048 .bf16) (pbs : Vec Ideal S1x2048 .f32) (lrs : Vec Ideal S256x1 .f32) (p : Fin 256) (o : Fin 2048) :
    k0_pay1 (F := Ideal) xs ws bs gs pbs lrs (ix2 p o)
      = (∑ k : Fin 2048, xs (ix2 p k) * ws (ix2 o k) + bs (ix2 (0 : Fin 1) o))
        - lrs (ix2 p (0 : Fin 1)) * (∑ k : Fin 2048, xs (ix2 p k) * gs (ix2 o k) + pbs (ix2 (0 : Fin 1) o)) := by
  unfold k0_pay1
  simp only [shapeCast_self]
  rw [subf_apply, addf_apply, mulf_apply, addf_apply, product_entry, product_entry,
    broadcastTo_1b_ab_apply, broadcastTo_1b_ab_apply, broadcastTo_a1_ab_apply]
  rfl

end Cert.KernelIdeal.AtIndex

end
-- ==== Proof.AtPoint.lean ====
/-
  One grid point's stored block is the specification on the point's rows.

  Grid point `T` works on batch rows `256·T … 256·T + 255`. Suppose its loads are what they should be: the row block
  `xs` is those rows of the batch, the matrices `ws`, `gs` are the weight arguments entry for entry, the bias rows
  `bs`, `pbs` hold the bias arguments along their second axis, and the rate column `lrs` holds the rates of those
  rows. Then the value stored at block index `y` is the specification's result at any array index `i` whose row is
  `256·T + y₀` and whose column is `y₁`.

  Every hypothesis is stated through coordinates (an operand entry equals an argument entry whenever their
  coordinates match), so it can be discharged at a block of the pipeline by arithmetic on the block's offset alone.
-/
import proofs.«171589_j88252987998616_2_alg».proof.Proof.Payload
import proofs.«171589_j88252987998616_2_alg».proof.Proof.Spec

noncomputable section

open scoped BigOperators

namespace Cert.KernelIdeal.AtIndex

open Cert.KernelIdeal Cert.KernelIdeal.Gen Idealize.ShloMosaic Idealize.ShloMosaic.ValueIdx Cert.Layer

/-- The stored value of point `T` at block index `y` is the result at the matching array index `i`. -/
theorem stored_is_result
    (x : FVec Ideal Batch .f32) (w : FVec Ideal Weights .f32) (b : FVec Ideal Units .f32)
    (g : FVec Ideal Weights .f32) (pb : FVec Ideal Units .f32) (lr : FVec Ideal Rows .f32)
    (xs : Vec Ideal S256x2048 .f32) (ws : Vec Ideal S2048x2048 .bf16) (bs : Vec Ideal S1x2048 .f32)
    (gs : Vec Ideal S2048x2048 .bf16) (pbs : Vec Ideal S1x2048 .f32) (lrs : Vec Ideal S256x1 .f32) (T : ℕ)
    (hx : ∀ (y : S256x2048.Idx) (i : Batch.Idx), (i 0).val = T * 256 + (y 0).val → (i 1).val = (y 1).val → xs y = x i)
    (hw : ∀ (y : S2048x2048.Idx) (i : Weights.Idx), (i 0).val = (y 0).val → (i 1).val = (y 1).val → ws y = w i)
    (hb : ∀ (y : S1x2048.Idx) (i : Units.Idx), (i 0).val = (y 1).val → bs y = b i)
    (hg : ∀ (y : S2048x2048.Idx) (i : Weights.Idx), (i 0).val = (y 0).val → (i 1).val = (y 1).val → gs y = g i)
    (hpb : ∀ (y : S1x2048.Idx) (i : Units.Idx), (i 0).val = (y 1).val → pbs y = pb i)
    (hlr : ∀ (y : S256x1.Idx) (i : Rows.Idx), (i 0).val = T * 256 + (y 0).val → lrs y = lr i)
    (y : S256x2048.Idx) (i : Batch.Idx) (hi0 : (i 0).val = T * 256 + (y 0).val) (hi1 : (i 1).val = (y 1).val) :
    k0_pay1 (F := Ideal) xs ws bs gs pbs lrs y = result x w b g pb lr i := by
  obtain ⟨p, o, rfl⟩ : ∃ (p : Fin 256) (o : Fin 2048), y = ix2 p o := ⟨y 0, y 1, eq_ix2 y⟩
  obtain ⟨r, o', rfl⟩ : ∃ (r : Fin 4096) (o' : Fin 2048), i = ix2 r o' := ⟨i 0, i 1, eq_ix2 i⟩
  have hr : r.val = T * 256 + p.val := hi0
  obtain rfl : o = o' := (Fin.ext hi1).symm
  rw [stored_entry, result_ix2]
  unfold entry affine
  have e1 : ∀ k : Fin 2048, xs (ix2 p k) = x (ix2 r k) := fun k => hx (ix2 p k) (ix2 r k) hr rfl
  have e2 : ∀ k : Fin 2048, ws (ix2 o k) = w (ix2 o k) := fun k => hw (ix2 o k) (ix2 o k) rfl rfl
  have e3 : bs (ix2 (0 : Fin 1) o) = b (ix1 o) := hb (ix2 (0 : Fin 1) o) (ix1 o) rfl
  have e4 : ∀ k : Fin 2048, gs (ix2 o k) = g (ix2 o k) := fun k => hg (ix2 o k) (ix2 o k) rfl rfl
  have e5 : pbs (ix2 (0 : Fin 1) o) = pb (ix1 o) := hpb (ix2 (0 : Fin 1) o) (ix1 o) rfl
  have e6 : lrs (ix2 p (0 : Fin 1)) = lr (ix1 r) := hlr (ix2 p (0 : Fin 1)) (ix1 r) hr
  simp only [e1, e2, e3, e4, e5, e6]

end Cert.KernelIdeal.AtIndex

end
-- ==== Proof.Whole.lean ====
/-
  From the sixteen row blocks to the whole result array.

  The grid has sixteen points; point `t` reads batch rows `256·t … 256·t + 255` and their rates, the whole of both
  weight matrices and both bias rows, and writes rows `256·t … 256·t + 255` of the result.
  * An entry of a block sits, in its array, at block index × block extent + its coordinate inside the block, on each
    axis. The block indices are `(t, 0)` for the batch, the rates and the result and `(0, 0)` for the matrices and the
    bias rows (decided over the sixteen points).
  * So every load of point `t` is the matching part of an argument — through the format change for the matrices and
    the re-layout for the bias rows and the rate column — and the block written back is the specification's result
    read on rows `256·t … 256·t + 255`.
  * Row `r` of the result lies in the block of point `r / 256`, so the sixteen blocks cover the array and the array
    ends holding the specification's result everywhere.
-/
import proofs.«171589_j88252987998616_2_alg».proof.Proof.Gen.KernelIdeal.Value
import proofs.«171589_j88252987998616_2_alg».proof.Proof.AtEntry
import proofs.«171589_j88252987998616_2_alg».proof.Proof.AtPoint

noncomputable section

namespace Cert.KernelIdeal.Whole

open Cert.KernelIdeal Cert.KernelIdeal.Gen Idealize.ShloMosaic Idealize.ShloMosaic.TcCoe Idealize.SL.Sem
open Idealize.ShloMosaic.Pipeline (Dat)
open Idealize.ShloMosaic.ValueIdx Cert.Layer Cert.KernelIdeal.AtEntry Cert.KernelIdeal.AtIndex

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at every grid point: the batch, the rates and the result move with the point along their first
    axis; the matrices and the bias rows stay at their one block. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- Every block row of the result is some point's. -/
theorem block_of_row : ∀ q : Fin 16, ∃ t : Fin cfg0.N, win0_6.index t (0 : Fin 2) = q.val ∧ win0_6.index t (1 : Fin 2) = 0 :=
  (by decide +kernel : ∀ q : Fin 16, ∃ t : Fin grid0.N, win0_6.index t (0 : Fin 2) = q.val ∧ win0_6.index t (1 : Fin 2) = 0)

/-! ## Each load of point `t` as part of an argument -/

/-- The row block of point `t` is rows `256·t …` of the batch. -/
theorem rows_block (c : Dev nD) (t : Fin cfg0.N) (y : S256x2048.Idx) (i : S4096x2048.Idx)
    (h0 : (i 0).val = t.val * 256 + (y 0).val) (h1 : (i 1).val = (y 1).val) :
    (iblk m c 0 t : Vec Ideal S256x2048 .f32) y = (m ((c : Thread nD τ).loc main_arg0)) i := by
  obtain ⟨e0, e1, -⟩ := block_indices t
  show V m c main_arg0 (((cfg0.win 0).blk t).view.emb y) = _
  rw [V_main_arg0]
  refine congrArg ((m ((c : Thread nD τ).loc main_arg0)) : S4096x2048.Idx → EReal) (funext fun a => Fin.ext ?_)
  match a with
  | ⟨0, _⟩ => show win0_0.index t (0 : Fin 2) * 256 + 1 * (y 0).val = (i 0).val; omega
  | ⟨1, _⟩ => show win0_0.index t (1 : Fin 2) * 2048 + 1 * (y 1).val = (i 1).val; omega

/-- The first matrix block is the whole first weight argument. -/
theorem w_block (c : Dev nD) (t : Fin cfg0.N) (y : S2048x2048.Idx) (i : S2048x2048.Idx)
    (h0 : (i 0).val = (y 0).val) (h1 : (i 1).val = (y 1).val) :
    (iblk m c 1 t : Vec Ideal S2048x2048 .bf16) y = (m ((c : Thread nD τ).loc main_arg1)) i := by
  obtain ⟨-, -, e0, e1, -⟩ := block_indices t
  show V m c main_v0 (((cfg0.win 1).blk t).view.emb y) = _
  rw [narrowed_w m c]
  show (m ((c : Thread nD τ).loc main_arg1)) (((cfg0.win 1).blk t).view.emb y) = _
  refine congrArg ((m ((c : Thread nD τ).loc main_arg1)) : S2048x2048.Idx → EReal) (funext fun a => Fin.ext ?_)
  match a with
  | ⟨0, _⟩ => show win0_1.index t (0 : Fin 2) * 2048 + 1 * (y 0).val = (i 0).val; omega
  | ⟨1, _⟩ => show win0_1.index t (1 : Fin 2) * 2048 + 1 * (y 1).val = (i 1).val; omega

/-- The second matrix block is the whole second weight argument. -/
theorem g_block (c : Dev nD) (t : Fin cfg0.N) (y : S2048x2048.Idx) (i : S2048x2048.Idx)
    (h0 : (i 0).val = (y 0).val) (h1 : (i 1).val = (y 1).val) :
    (iblk m c 2 t : Vec Ideal S2048x2048 .bf16) y = (m ((c : Thread nD τ).loc main_arg3)) i := by
  obtain ⟨-, -, -, -, e0, e1, -⟩ := block_indices t
  show V m c main_v1 (((cfg0.win 2).blk t).view.emb y) = _
  rw [narrowed_g m c]
  show (m ((c : Thread nD τ).loc main_arg3)) (((cfg0.win 2).blk t).view.emb y) = _
  refine congrArg ((m ((c : Thread nD τ).loc main_arg3)) : S2048x2048.Idx → EReal) (funext fun a => Fin.ext ?_)
  match a with
  | ⟨0, _⟩ => show win0_2.index t (0 : Fin 2) * 2048 + 1 * (y 0).val = (i 0).val; omega
  | ⟨1, _⟩ => show win0_2.index t (1 : Fin 2) * 2048 + 1 * (y 1).val = (i 1).val; omega

/-- The first bias row holds the first bias argument along its second axis. -/
theorem b_block (c : Dev nD) (t : Fin cfg0.N) (y : S1x2048.Idx) (i : S2048.Idx) (h : (i 0).val = (y 1).val) :
    (iblk m c 3 t : Vec Ideal S1x2048 .f32) y = (m ((c : Thread nD τ).loc main_arg2)) i := by
  obtain ⟨-, -, -, -, -, -, e0, e1, -⟩ := block_indices t
  show V m c main_v2 (((cfg0.win 3).blk t).view.emb y) = _
  rw [row_b m c]
  refine shapeCast_apply _ _ _ i ?_
  rw [Shape.rowMajor_val_one, Shape.rowMajor_val_two]
  show (i 0).val = (win0_3.index t (0 : Fin 2) * 1 + 1 * (y 0).val) * 2048 + (win0_3.index t (1 : Fin 2) * 2048 + 1 * (y 1).val)
  have hy : (y 0).val < 1 := idx2_lt0 y
  omega

/-- The second bias row holds the second bias argument along its second axis. -/
theorem pb_block (c : Dev nD) (t : Fin cfg0.N) (y : S1x2048.Idx) (i : S2048.Idx) (h : (i 0).val = (y 1).val) :
    (iblk m c 4 t : Vec Ideal S1x2048 .f32) y = (m ((c : Thread nD τ).loc main_arg4)) i := by
  obtain ⟨-, -, -, -, -, -, -, -, e0, e1, -⟩ := block_indices t
  show V m c main_v3 (((cfg0.win 4).blk t).view.emb y) = _
  rw [row_pb m c]
  refine shapeCast_apply _ _ _ i ?_
  rw [Shape.rowMajor_val_one, Shape.rowMajor_val_two]
  show (i 0).val = (win0_4.index t (0 : Fin 2) * 1 + 1 * (y 0).val) * 2048 + (win0_4.index t (1 : Fin 2) * 2048 + 1 * (y 1).val)
  have hy : (y 0).val < 1 := idx2_lt0 y
  omega

/-- The rate block of point `t` holds the rates of rows `256·t …`. -/
theorem lr_block (c : Dev nD) (t : Fin cfg0.N) (y : S256x1.Idx) (i : S4096.Idx) (h : (i 0).val = t.val * 256 + (y 0).val) :
    (iblk m c 5 t : Vec Ideal S256x1 .f32) y = (m ((c : Thread nD τ).loc main_arg5)) i := by
  obtain ⟨-, -, -, -, -, -, -, -, -, -, e0, e1, -⟩ := block_indices t
  show V m c main_v4 (((cfg0.win 5).blk t).view.emb y) = _
  rw [column_lr m c]
  refine shapeCast_apply _ _ _ i ?_
  rw [Shape.rowMajor_val_one, Shape.rowMajor_val_two]
  show (i 0).val = (win0_5.index t (0 : Fin 2) * 256 + 1 * (y 0).val) * 1 + (win0_5.index t (1 : Fin 2) * 1 + 1 * (y 1).val)
  have hy : (y 1).val < 1 := idx2_lt1 y
  omega

/-! ## What a point writes back, the cover, the array -/

/-- WHAT POINT `t` WRITES BACK is block `t` of the specification's result of the arguments. -/
theorem flushed_eq (c : Dev nD) (t : Fin cfg0.N) :
    (dats m 0 c).flushed 6 t = ((cfg0.win 6).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  rw [Cert.KernelIdeal.Value.flushed6]
  unfold out0_6
  rw [View.canon_unit_zero zero_offsets]
  simp only [View.ld_unit_zero (S := S256x2048) zero_offsets, View.ld_unit_zero (S := S2048x2048) zero_offsets,
    View.ld_unit_zero (S := S1x2048) zero_offsets, View.ld_unit_zero (S := S256x1) zero_offsets]
  obtain ⟨-, -, -, -, -, -, -, -, -, -, -, -, e0, e1⟩ := block_indices t
  funext j
  show k0_pay1 (F := Ideal) (iblk m c 0 t) (iblk m c 1 t) (iblk m c 3 t) (iblk m c 2 t) (iblk m c 4 t) (iblk m c 5 t) j
    = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (((cfg0.win 6).blk t).view.emb j)
  refine stored_is_result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    (iblk m c 0 t) (iblk m c 1 t) (iblk m c 3 t) (iblk m c 2 t) (iblk m c 4 t) (iblk m c 5 t) t.val
    (rows_block m c t) (w_block m c t) (b_block m c t) (g_block m c t) (pb_block m c t) (lr_block m c t)
    j (((cfg0.win 6).blk t).view.emb j) ?_ ?_
  · show win0_6.index t (0 : Fin 2) * 256 + 1 * (j 0).val = t.val * 256 + (j 0).val; omega
  · show win0_6.index t (1 : Fin 2) * 2048 + 1 * (j 1).val = (j 1).val; omega

/-- An index of the result is in point `t`'s block iff each coordinate is in the block's range on its axis. -/
theorem mem_block (t : Fin cfg0.N) (i : S4096x2048.Idx) :
    i ∈ ((cfg0.win 6).blk t).view.set ↔ ∀ a : Fin 2, win0_6.index t a * S256x2048.size a ≤ (i a).val ∧ (i a).val < win0_6.index t a * S256x2048.size a + S256x2048.size a := by
  show i ∈ ((View.whole main_v5).slice (win0_6.rect t)).set ↔ _
  rw [View.set_slice_whole, Rect.mem_set_unit]
  exact Iff.rfl

/-- Row `r` of the result is in the block of point `r / 256`: the blocks cover the array. -/
theorem covered (i : S4096x2048.Idx) :
    ∃ t : Fin cfg0.N, (cfg0.win 6).flush t = true ∧ i ∈ ((cfg0.win 6).blk t).view.set := by
  have hi0 : (i 0).val < 4096 := idx2_lt0 i
  have hi1 : (i 1).val < 2048 := idx2_lt1 i
  obtain ⟨t, q0, q1⟩ := block_of_row ⟨(i 0).val / 256, by omega⟩
  have q0' : win0_6.index t (0 : Fin 2) = (i 0).val / 256 := q0
  refine ⟨t, flush0_6 t, ?_⟩
  rw [mem_block]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 2048 ≤ (i 1).val ∧ (i 1).val < win0_6.index t (1 : Fin 2) * 2048 + 2048; omega

/-- THE ARRAY after the run is the specification's result of the arguments. -/
theorem final (c : Dev nD) : (dats m 0 c).arrAt 6 cfg0.N = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) :=
  (dats m 0 c).arrAt_eq_of_cover 6 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (fun t _ => flushed_eq m c t) covered

/-- The run, read: the result array at the specification's result of the arguments, the arguments unchanged. -/
theorem run : θ_run defs (onTc (τ := τ) (main (F := Ideal))) ⟨m, fun _ => 0, ρ⟩ fun r => ∀ c : Dev nD,
      r.2.mem ((c : Thread nD τ).loc main_v5) = (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.Whole

end
-- ==== Proof.lean ====
/- The kernel and its reference compute one function on the extended reals.

   For a batch `x` (4096 × 2048), weight matrices `w`, `g` (2048 × 2048, one row per output unit), bias vectors `b`,
   `pb` (2048) and per-row rates `lr` (4096), entry `(r, o)` of the result is

       (∑ₖ x[r,k] · w[o,k] + b[o]) − lr[r] · (∑ₖ x[r,k] · g[o,k] + pb[o])          (Proof/Spec.lean).

   * The reference transposes each matrix, contracts, adds the broadcast bias, scales the second affine map by the
     broadcast rates and subtracts; read at `(r, o)` that is the formula above (Proof/RefAtIndex.lean).
   * The kernel narrows the matrices (the identity on extended reals), re-lays the biases as rows and the rates as a
     column (Proof/AtEntry.lean), and runs sixteen grid points of 256 batch rows each. A point's stored value at
     `(p, o)` is the same formula on its loads — each matrix product into a zero accumulator is the plain sum
     (Proof/Payload.lean, Proof/Layout.lean) — hence the result on the point's own rows (Proof/AtPoint.lean); the
     sixteen row blocks tile the array, so the array ends holding the result everywhere (Proof/Whole.lean).
   Both sides keep the same grouping, so no step distributes a product over a sum or cancels anything: the equality
   holds for every extended-real input and the finiteness of the inputs is never used.
   The idealized kernel is the printed kernel's own text read on the extended reals (no operation was rewritten), so
   there is nothing to preserve beyond `True`; each program's termination and unchanged arguments are the generated
   frame of its pipeline, and for the reference its run with the result dropped. -/
import proofs.«171589_j88252987998616_2_alg».proof.Defs
import proofs.«171589_j88252987998616_2_alg».proof.Proof.Gen.Kernel
import proofs.«171589_j88252987998616_2_alg».proof.Proof.Gen.Kernel.Skeleton
import proofs.«171589_j88252987998616_2_alg».proof.Proof.Gen.Kernel.Launch
import proofs.«171589_j88252987998616_2_alg».proof.Proof.Gen.Kernel.Points
import proofs.«171589_j88252987998616_2_alg».proof.Proof.Gen.Kernel.Frame
import proofs.«171589_j88252987998616_2_alg».proof.Proof.Gen.KernelIdeal
import proofs.«171589_j88252987998616_2_alg».proof.Proof.Gen.KernelIdeal.Skeleton
import proofs.«171589_j88252987998616_2_alg».proof.Proof.Gen.KernelIdeal.Launch
import proofs.«171589_j88252987998616_2_alg».proof.Proof.Gen.KernelIdeal.Points
import proofs.«171589_j88252987998616_2_alg».proof.Proof.Gen.KernelIdeal.Frame
import proofs.«171589_j88252987998616_2_alg».proof.Proof.Gen.ReferenceIdeal
import proofs.«171589_j88252987998616_2_alg».proof.Proof.Gen.Pre_finite_inputs
import proofs.«171589_j88252987998616_2_alg».proof.Proof.Gen.KernelIdeal.Value
import proofs.«171589_j88252987998616_2_alg».proof.Proof.Gen.ReferenceIdeal.Run
import proofs.«171589_j88252987998616_2_alg».proof.Proof.Gen.ReferenceIdeal.Read
import proofs.«171589_j88252987998616_2_alg».proof.Proof.RefAtIndex
import proofs.«171589_j88252987998616_2_alg».proof.Proof.Whole
import Idealize.ShloMosaic.Adequacy
import Idealize.ShloMosaic.Init

noncomputable section

namespace Cert.Proof

open Idealize.ShloMosaic Idealize.ShloMosaic.TcCoe Idealize.SL.Sem

/-- The printed kernel terminates without a fault and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with its result dropped, is its frame. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten between the kernel and its reading on the extended reals. -/
theorem preserves : Cert.preserves_Kernel_KernelIdeal := trivial

/-- From memories agreeing on the arguments both programs end with the specification's result of those arguments. -/
theorem algebraic : Cert.algebraic_KernelIdeal_ReferenceIdeal := by
  intro m ρ m' ρ' _ hagree
  refine ⟨fun c => Cert.Layer.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.AtIndex.stage_result,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
